-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512x1024 : Shape := ⟨2, ![512, 1024]⟩
abbrev S512 : Shape := ⟨1, ![512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S512x512 .f32) (main_arg1 : FVec F S512x512 .f32) (main_arg2 : FVec F S512x1024 .f32) (main_arg3 : FVec F S512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S512x512 : Shape := ⟨2, ![512, 512]⟩
abbrev S512x1024 : Shape := ⟨2, ![512, 1024]⟩
abbrev S512 : Shape := ⟨1, ![512]⟩
abbrev S1x512 : Shape := ⟨2, ![1, 512]⟩
abbrev S512x512x512 : Shape := ⟨3, ![512, 512, 512]⟩
abbrev S32x512 : Shape := ⟨2, ![32, 512]⟩
abbrev S256x512 : Shape := ⟨2, ![256, 512]⟩
abbrev S32x256x512 : Shape := ⟨3, ![32, 256, 512]⟩
abbrev S32x1x512 : Shape := ⟨3, ![32, 1, 512]⟩
abbrev S1x256x512 : Shape := ⟨3, ![1, 256, 512]⟩

abbrev nBuf : Space → Nat
  | .hbm => 14
  | .vmem => 6
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x1024, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S1x512, .f32⟩
  | .hbm, ⟨11, _⟩ => ⟨S512x512, .f32⟩
  | .hbm, ⟨12, _⟩ => ⟨S512x512, .f32⟩
  | .hbm, ⟨13, _⟩ => ⟨S512x512x512, .f32⟩
  | .local _ .vmem, ⟨0, _⟩ => ⟨S32x512, .f32⟩
  | .local _ .vmem, ⟨1, _⟩ => ⟨S32x512, .f32⟩
  | .local _ .vmem, ⟨2, _⟩ => ⟨S256x512, .f32⟩
  | .local _ .vmem, ⟨3, _⟩ => ⟨S256x512, .f32⟩
  | .local _ .vmem, ⟨4, _⟩ => ⟨S32x256x512, .f32⟩
  | .local _ .vmem, ⟨5, _⟩ => ⟨S32x256x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S512x1024_S512x512_0_0 : S512x1024.Slices ![0, 0] S512x512
  slices_S512x1024_S512x512_0_512 : S512x1024.Slices ![0, 512] S512x512
  transposes_S512x512_S512x512_1_0 : S512x512.Transposes [1, 0] S512x512
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  shapeCasts_S32x512_S32x1x512 : S32x512.ShapeCasts S32x1x512
  shapeCasts_S256x512_S1x256x512 : S256x512.ShapeCasts S1x256x512
  broadcasts_S32x1x512_S32x256x512 : S32x1x512.Broadcasts S32x256x512
  broadcasts_S1x256x512_S32x256x512 : S1x256x512.Broadcasts S32x256x512
  inb_S32x256x512_S32x256x512_0_0_0 : ∀ a, (![0, 0, 0] : Fin 3 → Nat) a + S32x256x512.size a ≤ S32x256x512.size a
  h_S32x256x512 : 0 < S32x256x512.numel
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S512x512.size a
  hwx0_0 : ∀ i : grid0.Coords, EltTy.bits .f32 = 32 ∨ (Rect.block (s := S512x512) S32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S512x512.size a
  hwx0_1 : ∀ i : grid0.Coords, EltTy.bits .f32 = 32 ∨ (Rect.block (s := S512x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256x512.size a ≤ S512x512x512.size a
  hwx0_2 : ∀ i : grid0.Coords, EltTy.bits .f32 = 32 ∨ (Rect.block (s := S512x512x512) S32x256x512.size (cc0_transform_2 i) (hinb0_2 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v3) S32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S32x256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x512 : Shape := ⟨2, ![512, 512]⟩
abbrev S512x1024 : Shape := ⟨2, ![512, 1024]⟩
abbrev S512 : Shape := ⟨1, ![512]⟩
abbrev S512x1x512 : Shape := ⟨3, ![512, 1, 512]⟩
abbrev S1x512x512 : Shape := ⟨3, ![1, 512, 512]⟩
abbrev S512x512x512 : Shape := ⟨3, ![512, 512, 512]⟩
abbrev S1x1x512 : Shape := ⟨3, ![1, 1, 512]⟩

abbrev nBuf : Space → Nat
  | .hbm => 18
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x1024, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x1x512, .f32⟩
  | .hbm, ⟨11, _⟩ => ⟨S1x512x512, .f32⟩
  | .hbm, ⟨12, _⟩ => ⟨S512x512x512, .f32⟩
  | .hbm, ⟨13, _⟩ => ⟨S512x512x512, .f32⟩
  | .hbm, ⟨14, _⟩ => ⟨S512x512x512, .f32⟩
  | .hbm, ⟨15, _⟩ => ⟨S1x1x512, .f32⟩
  | .hbm, ⟨16, _⟩ => ⟨S512x512x512, .f32⟩
  | .hbm, ⟨17, _⟩ => ⟨S512x512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  slices_S512x1024_S512x512_0_0 : S512x1024.Slices ![0, 0] S512x512
  slices_S512x1024_S512x512_0_512 : S512x1024.Slices ![0, 512] S512x512
  transposes_S512x512_S512x512_1_0 : S512x512.Transposes [1, 0] S512x512
  bcast_S512x512_S512x1x512_0_2 : S512x512.BroadcastsInDim S512x1x512 (![0, 2] : Fin 2 → Fin S512x1x512.rank)
  bcast_S512x512_S1x512x512_1_2 : S512x512.BroadcastsInDim S1x512x512 (![1, 2] : Fin 2 → Fin S1x512x512.rank)
  bcast_S512x1x512_S512x512x512_0_1_2 : S512x1x512.BroadcastsInDim S512x512x512 (![0, 1, 2] : Fin 3 → Fin S512x512x512.rank)
  bcast_S1x512x512_S512x512x512_0_1_2 : S1x512x512.BroadcastsInDim S512x512x512 (![0, 1, 2] : Fin 3 → Fin S512x512x512.rank)
  bcast_S512_S1x1x512_2 : S512.BroadcastsInDim S1x1x512 (![2] : Fin 1 → Fin S1x1x512.rank)
  bcast_S1x1x512_S512x512x512_0_1_2 : S1x1x512.BroadcastsInDim S512x512x512 (![0, 1, 2] : Fin 3 → Fin S512x512x512.rank)
  dot_S512x512_S512x512_S512x512_1_0_0_1_n_n_wf : DotDims.WF S512x512 S512x512 S512x512 [1] [0] [0] [1] [] []

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

class Facts : Prop extends Facts₀ where

variable [Facts]
-- ==== Proof.PairSum.lean ====
/-
  The function both programs compute, stated once over literal shapes, with no program in sight.

  Two matrices `L`, `R : [512, 512]` (the ligand and the receptor projections) and a row `b : [512]` (the bias)
  give the cube of all pairs
      out (i, j, k) = L (i, k) + R (j, k) + b (k).
  One arrangement adds the row to every row of `R` first and then forms the cube of sums
  `L (i, k) + (R (j, k) + b (k))`; the other forms the cube `L (i, k) + R (j, k)` and adds the row last. They agree
  by associativity of addition, which on the extended reals holds at the infinities too: nothing has to be finite.
-/
import Idealize.ShloMosaic.PureOps.Ideal
import Idealize.ShloMosaic.Lib.ValueIdx

noncomputable section

namespace Cert.PairSum

open Idealize.ShloMosaic

/-- A [512, 512] matrix's shape, -/
abbrev Mat : Shape := ⟨2, ![512, 512]⟩
/-- the shape of the cube of all (ligand, receptor, feature) triples, -/
abbrev Cube : Shape := ⟨3, ![512, 512, 512]⟩
/-- and a length-512 row's. -/
abbrev Row : Shape := ⟨1, ![512]⟩

/-- Entry (i, j, k) of the cube reads the ligand matrix at (i, k), -/
abbrev ligAt (i : Cube.Idx) : Mat.Idx := fun a => match a with
  | ⟨0, _⟩ => ⟨(i 0).val, (i 0).isLt⟩
  | ⟨1, _⟩ => ⟨(i 2).val, (i 2).isLt⟩
/-- the receptor matrix at (j, k), -/
abbrev recAt (i : Cube.Idx) : Mat.Idx := fun a => match a with
  | ⟨0, _⟩ => ⟨(i 1).val, (i 1).isLt⟩
  | ⟨1, _⟩ => ⟨(i 2).val, (i 2).isLt⟩
/-- and the row at k. -/
abbrev laneAt (i : Cube.Idx) : Row.Idx := fun a => match a with
  | ⟨0, _⟩ => ⟨(i 2).val, (i 2).isLt⟩
/-- Entry (j, k) of a matrix sits in column k. -/
abbrev colOf (j : Mat.Idx) : Row.Idx := fun a => match a with
  | ⟨0, _⟩ => ⟨(j 1).val, (j 1).isLt⟩

/-- The receptor entry of a cube index sits in the cube index's own last coordinate. -/
theorem colOf_recAt (i : Cube.Idx) : colOf (recAt i) = laneAt i :=
  funext fun a => Fin.ext (by match a with | ⟨0, _⟩ => rfl)

variable {F : FTy → Type} [FloatOps F]

/-- The cube of sums of a row of `A` and a row of `B`: entry (i, j, k) is `A (i, k) + B (j, k)`. -/
def outerAdd (A B : Mat.Idx → F .f32) : Cube.Idx → F .f32 :=
  fun i => FloatOps.addf (A (ligAt i)) (B (recAt i))

/-- The cube of sums with the row added last: entry (i, j, k) is `(L (i, k) + R (j, k)) + b (k)`. -/
def outerAddRow (L R : Mat.Idx → F .f32) (b : Row.Idx → F .f32) : Cube.Idx → F .f32 :=
  fun i => FloatOps.addf (FloatOps.addf (L (ligAt i)) (R (recAt i))) (b (laneAt i))

/-- ASSOCIATIVITY JOINS THE TWO ARRANGEMENTS. If `B` is `R` with the row `b` added to each of its rows, the cube of
    sums of `L` and `B` is the cube of sums of `L` and `R` with `b` added last: at every entry
    `L + (R + b) = (L + R) + b` on the extended reals. -/
theorem outerAdd_row (L R B : Mat.Idx → Ideal .f32) (b : Row.Idx → Ideal .f32)
    (hB : ∀ j : Mat.Idx, B j = FloatOps.addf (R j) (b (colOf j))) :
    outerAdd (F := Ideal) L B = outerAddRow (F := Ideal) L R b := by
  funext i
  show FloatOps.addf (L (ligAt i)) (B (recAt i)) = FloatOps.addf (FloatOps.addf (L (ligAt i)) (R (recAt i))) (b (laneAt i))
  rw [hB (recAt i), colOf_recAt i]
  simp only [Ideal.addf_def]
  exact (add_assoc _ _ _).symm

end Cert.PairSum

end
-- ==== Proof.KernelWhole.lean ====
/-
  From the kernel's blocks to its whole output array.

  The grid has 16 × 2 points. At point (p, q) the body reads rows 32p … 32p + 31 of the first array `A` and rows
  256q … 256q + 255 of the second array `B` (all 512 columns of each) and writes the block
      out (32p + y0, 256q + y1, y2) = A (32p + y0, y2) + B (256q + y1, y2)
  of the [512, 512, 512] output. So every point writes its block of ONE function of the two arrays, the cube of sums
  `Cert.PairSum.outerAdd A B`; the 32 blocks tile the output (the block holding entry (i, j, k) is the one at
  (i / 32, j / 256)); hence the output array ends holding that cube.
-/
import proofs.«141155_j13683765805203_2_alg».proof.Proof.Gen.KernelIdeal.Value
import proofs.«141155_j13683765805203_2_alg».proof.Proof.PairSum
import Idealize.ShloMosaic.Lib.Pipeline.Value

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zero2 : (![0, 0] : Fin 2 → Nat) = fun _ => 0 := funext fun a => by fin_cases a <;> rfl

/-- What the body leaves in the output block is one function of the two loaded blocks: at block index `y`, the first
    block at (y0, y2) plus the second at (y1, y2). -/
theorem out_eq (x0 : Vec F S32x512 .f32) (x1 : Vec F S256x512 .f32) : out0_2 x0 x1 = E2 x0 x1 := by
  unfold out0_2
  simp only [View.ld_unit_zero (S := S32x512) zero2, View.ld_unit_zero (S := S256x512) zero2]
  funext y
  exact canon2_eq x0 x1 y

/-- The printed index maps over the grid: the first window moves with the output's first axis, the second with the
    output's second axis, and every map's last entry is 0; the output's block indices stay below 16 and 2. -/
theorem idx_facts : ∀ t : Fin cfg0.N,
    win0_0.index t (0 : Fin 2) = win0_2.index t (0 : Fin 3) ∧ win0_0.index t (1 : Fin 2) = 0
    ∧ win0_1.index t (0 : Fin 2) = win0_2.index t (1 : Fin 3) ∧ win0_1.index t (1 : Fin 2) = 0
    ∧ win0_2.index t (2 : Fin 3) = 0
    ∧ win0_2.index t (0 : Fin 3) ≤ 15 ∧ win0_2.index t (1 : Fin 3) ≤ 1 :=
  (by decide +kernel : ∀ t : Fin grid0.N, _)

/-- Every block position (p, q) of the output is some grid point's. -/
theorem idx_onto : ∀ (p : Fin 16) (q : Fin 2), ∃ t : Fin cfg0.N, win0_2.index t = ![p.val, q.val, 0] :=
  (by decide +kernel : ∀ (p : Fin 16) (q : Fin 2), ∃ t : Fin grid0.N, win0_2.index t = ![p.val, q.val, 0])

/-- WHAT POINT `t` WRITES BACK is block `t` of the cube of sums of the two arrays as the region finds them. -/
theorem flushed_eq (c : Dev nD) (t : Fin cfg0.N) :
    (dats m 0 c).flushed 2 t
      = ((cfg0.win 2).blk t).view.read (Elt F) (Cert.PairSum.outerAdd (V m c main_v3) (V m c main_v8)) := by
  rw [flushed2, out_eq]
  obtain ⟨e0, e1, e2, e3, e4, -, -⟩ := idx_facts t
  funext y
  show FloatOps.addf (V m c main_v3 (((cfg0.win 0).blk t).view.emb (ix2_0 y))) (V m c main_v8 (((cfg0.win 1).blk t).view.emb (ix2_1 y)))
    = FloatOps.addf (V m c main_v3 (Cert.PairSum.ligAt (((cfg0.win 2).blk t).view.emb y))) (V m c main_v8 (Cert.PairSum.recAt (((cfg0.win 2).blk t).view.emb y)))
  -- a block's coordinate in its array is block index × block size + the coordinate inside the block
  have h0 : ((cfg0.win 0).blk t).view.emb (ix2_0 y) = Cert.PairSum.ligAt (((cfg0.win 2).blk t).view.emb y) := by
    funext a; apply Fin.ext
    match a with
    | ⟨0, _⟩ => show win0_0.index t (0 : Fin 2) * 32 + 1 * (y 0).val = win0_2.index t (0 : Fin 3) * 32 + 1 * (y 0).val; omega
    | ⟨1, _⟩ => show win0_0.index t (1 : Fin 2) * 512 + 1 * (y 2).val = win0_2.index t (2 : Fin 3) * 512 + 1 * (y 2).val; omega
  have h1 : ((cfg0.win 1).blk t).view.emb (ix2_1 y) = Cert.PairSum.recAt (((cfg0.win 2).blk t).view.emb y) := by
    funext a; apply Fin.ext
    match a with
    | ⟨0, _⟩ => show win0_1.index t (0 : Fin 2) * 256 + 1 * (y 1).val = win0_2.index t (1 : Fin 3) * 256 + 1 * (y 1).val; omega
    | ⟨1, _⟩ => show win0_1.index t (1 : Fin 2) * 512 + 1 * (y 2).val = win0_2.index t (2 : Fin 3) * 512 + 1 * (y 2).val; omega
  rw [h0, h1]

/-- An entry of the output is in point `t`'s block iff each coordinate is in the block's range on its axis. -/
theorem mem_blk (t : Fin cfg0.N) (i : S512x512x512.Idx) :
    i ∈ ((cfg0.win 2).blk t).view.set ↔ ∀ a : Fin 3, win0_2.index t a * S32x256x512.size a ≤ (i a).val
      ∧ (i a).val < win0_2.index t a * S32x256x512.size a + S32x256x512.size a := by
  show i ∈ ((View.whole main_v9).slice (win0_2.rect t)).set ↔ _
  rw [View.set_slice_whole, Rect.mem_set_unit]
  exact Iff.rfl

/-- THE BLOCKS TILE THE OUTPUT: entry (i, j, k) is in the block of the point at (i / 32, j / 256). -/
theorem cover (i : S512x512x512.Idx) :
    ∃ t : Fin cfg0.N, (cfg0.win 2).flush t = true ∧ i ∈ ((cfg0.win 2).blk t).view.set := by
  have hi0 : (i 0).val < 512 := (i 0).isLt
  have hi1 : (i 1).val < 512 := (i 1).isLt
  have hi2 : (i 2).val < 512 := (i 2).isLt
  obtain ⟨t, ht⟩ := idx_onto ⟨(i 0).val / 32, by omega⟩ ⟨(i 1).val / 256, by omega⟩
  have q0 : win0_2.index t (0 : Fin 3) = (i 0).val / 32 := congrFun ht 0
  have q1 : win0_2.index t (1 : Fin 3) = (i 1).val / 256 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 32 ≤ (i 0).val ∧ (i 0).val < win0_2.index t (0 : Fin 3) * 32 + 32; omega
  | ⟨1, _⟩ => show win0_2.index t (1 : Fin 3) * 256 ≤ (i 1).val ∧ (i 1).val < win0_2.index t (1 : Fin 3) * 256 + 256; omega
  | ⟨2, _⟩ => show win0_2.index t (2 : Fin 3) * 512 ≤ (i 2).val ∧ (i 2).val < win0_2.index t (2 : Fin 3) * 512 + 512; omega

/-- THE OUTPUT ARRAY after the run is the cube of sums of the two arrays the region read. -/
theorem final (c : Dev nD) :
    (dats m 0 c).arrAt 2 cfg0.N = Cert.PairSum.outerAdd (V m c main_v3) (V m c main_v8) :=
  (dats m 0 c).arrAt_eq_of_cover 2 (Cert.PairSum.outerAdd (V m c main_v3) (V m c main_v8)) (fun t _ => flushed_eq m c t) cover

end Cert.KernelIdeal.Whole

end
-- ==== Proof.KernelEntry.lean ====
/-
  What the kernel's one region finds in the two arrays it reads, as functions of the program's arguments.

  Before the region the host computes, from the features `x0`, `x1 : [512, 512]`, the weights `w : [512, 1024]` and the
  bias `b : [512]`:
    * the ligand projection `x0 · (w[:, 0:512])ᵀ`, which the region reads through its first window;
    * the receptor projection `x1 · (w[:, 512:1024])ᵀ` with the bias added to each of its rows, which it reads through
      its second window.
  The two matrix products are carried as whole terms and never opened: the reference computes the very same products.
  The bias rows are read at an entry: row `j`, column `k` of them is `b k`.
-/
import proofs.«141155_j13683765805203_2_alg».proof.Proof.Gen.KernelIdeal.Frame
import proofs.«141155_j13683765805203_2_alg».proof.Proof.PairSum
import Idealize.ShloMosaic.Lib.Pipeline.Value
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo

variable {F : FTy → Type} [FloatOps F]

/-- The ligand projection: the features times the transposed left half of the weights. -/
def ligProj (x0 : FVec F S512x512 .f32) (w : FVec F S512x1024 .f32) : FVec F S512x512 .f32 :=
  Host.dotGeneral dot_S512x512_S512x512_S512x512_1_0_0_1_n_n none x0
    (transpose S512x512 [1, 0] (extractStridedSlice S512x512 ![0, 0] w slices_S512x1024_S512x512_0_0) transposes_S512x512_S512x512_1_0)

/-- The receptor projection: the features times the transposed right half of the weights. -/
def recProj (x1 : FVec F S512x512 .f32) (w : FVec F S512x1024 .f32) : FVec F S512x512 .f32 :=
  Host.dotGeneral dot_S512x512_S512x512_S512x512_1_0_0_1_n_n none x1
    (transpose S512x512 [1, 0] (extractStridedSlice S512x512 ![0, 512] w slices_S512x1024_S512x512_0_512) transposes_S512x512_S512x512_1_0)

/-- The bias laid out as 512 equal rows. -/
def biasRows (b : FVec F S512 .f32) : FVec F S512x512 .f32 :=
  broadcastInDim S512x512 ![0, 1] bcast_S1x512_S512x512_0_1 (broadcastInDim S1x512 ![1] bcast_S512_S1x512_1 b)

/-- Row `j 0`, column `j 1` of the bias rows is the bias at `j 1`. -/
theorem biasRows_apply (b : FVec F S512 .f32) (j : S512x512.Idx) : biasRows b j = b (Cert.PairSum.colOf j) := by
  unfold biasRows
  refine (broadcastInDim_apply _ bcast_S1x512_S512x512_0_1 _ j
    (fun a => match a with | ⟨0, _⟩ => ⟨0, Nat.one_pos⟩ | ⟨1, _⟩ => ⟨(j 1).val, (j 1).isLt⟩ : S1x512.Idx) (fun a => match a with
    | ⟨0, _⟩ => by show 0 = if (1 : Nat) = 1 then 0 else (j 0).val; rw [if_pos rfl]
    | ⟨1, _⟩ => by show (j 1).val = if (512 : Nat) = 1 then 0 else (j 1).val; rw [if_neg (by decide)])).trans ?_
  exact broadcastInDim_apply _ bcast_S512_S1x512_1 b _ (Cert.PairSum.colOf j) (fun a => match a with
    | ⟨0, _⟩ => by show (j 1).val = if (512 : Nat) = 1 then 0 else (j 1).val; rw [if_neg (by decide)])

variable (m : (ℓ : Loc nD τ sig) → Buf (Elt F) ℓ)

/-- The first window's array at region entry is the ligand projection of the arguments. -/
theorem lig_entry (c : Dev nD) : (V m c main_v3 : S512x512.Idx → Elt F .f32)
    = ligProj (m ((c : Thread nD τ).loc main_arg0)) (m ((c : Thread nD τ).loc main_arg2)) := by
  dsimp only [V, hostOps0]; after_results; rfl

/-- The second window's array at region entry is the receptor projection of the arguments plus the bias rows. -/
theorem rec_entry (c : Dev nD) : (V m c main_v8 : S512x512.Idx → Elt F .f32)
    = addf (recProj (m ((c : Thread nD τ).loc main_arg1)) (m ((c : Thread nD τ).loc main_arg2))) (biasRows (m ((c : Thread nD τ).loc main_arg3))) := by
  dsimp only [V, hostOps0]; after_results; rfl

end Cert.KernelIdeal.Entry

end
-- ==== Proof.KernelResult.lean ====
/-
  The kernel's result as one function of its four arguments, at the ideal instance.

  The output array ends holding the cube of sums of the two arrays the region read; those are the ligand projection,
  and the receptor projection with the bias added to each row. Entry by entry that is `lig + (rec + b)`, which
  associativity turns into `(lig + rec) + b`: the cube of sums of the two projections with the bias added last.
-/
import proofs.«141155_j13683765805203_2_alg».proof.Proof.KernelWhole
import proofs.«141155_j13683765805203_2_alg».proof.Proof.KernelEntry

noncomputable section

namespace Cert.KernelIdeal.Result

open Cert.KernelIdeal Cert.KernelIdeal.Gen Idealize.ShloMosaic Idealize.ShloMosaic.TcCoe Idealize.SL.Sem

/-- The result: entry (i, j, k) is `(lig (i, k) + rec (j, k)) + b k`, with `lig` and `rec` the two projections of
    the features by the two halves of the weights. -/
def result (x0 x1 : FVec Ideal S512x512 .f32) (w : FVec Ideal S512x1024 .f32) (b : FVec Ideal S512 .f32) :
    S512x512x512.Idx → Ideal .f32 :=
  Cert.PairSum.outerAddRow (Entry.ligProj x0 w) (Entry.recProj x1 w) b

variable (m : (ℓ : Loc nD τ sig) → Buf (Elt Ideal) ℓ) (ρ : Dev nD → PrngReg)

/-- The output array after the run is `result` of the arguments as launched. -/
theorem final_eq (c : Dev nD) : (dats m 0 c).arrAt 2 cfg0.N
    = result (m ((c : Thread nD τ).loc main_arg0)) (m ((c : Thread nD τ).loc main_arg1))
        (m ((c : Thread nD τ).loc main_arg2)) (m ((c : Thread nD τ).loc main_arg3)) := by
  rw [Whole.final, Entry.lig_entry, Entry.rec_entry]
  exact Cert.PairSum.outerAdd_row _ _ _ _ (fun j => by
    show FloatOps.addf _ (Entry.biasRows _ j) = _
    rw [Entry.biasRows_apply])

/-- The kernel's run, read: the result array at `result` of the arguments, the arguments unchanged. -/
theorem run : θ_run defs (onTc (τ := τ) (main (F := Ideal))) ⟨m, fun _ => 0, ρ⟩ fun r => ∀ c : Dev nD,
      r.2.mem ((c : Thread nD τ).loc main_v9)
        = result (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_eq m c), (h c).2⟩)
    (Cert.KernelIdeal.Value.run_blocks m ρ)

end Cert.KernelIdeal.Result

end
-- ==== Proof.RefValue.lean ====
/-
  The reference's result as the cube of sums with the bias added last.

  The reference forms both projections, lays the ligand projection out along the receptor axis and the receptor projection
  along the ligand axis, adds the two cubes, lays the bias out over the whole cube and adds it. Read at an entry
  (i, j, k), through the generated reads of each broadcast, that is
      (lig (i, k) + rec (j, k)) + b k
  with `lig` and `rec` the two projections as whole terms: the matrix products are not opened.
-/
import proofs.«141155_j13683765805203_2_alg».proof.Proof.Gen.ReferenceIdeal.Read
import proofs.«141155_j13683765805203_2_alg».proof.Proof.PairSum

noncomputable section

namespace Cert.ReferenceIdeal.RefValue

open Cert.ReferenceIdeal Cert.ReferenceIdeal.Gen Cert.ReferenceIdeal.Read Idealize.ShloMosaic Idealize.ShloMosaic.TcCoe Idealize.SL.Sem

variable {F : FTy → Type} [FloatOps F]

/-- The reference's last stage is the cube of sums of the two projections with the bias row added last. -/
theorem result_eq (x0 x1 : FVec F S512x512 .f32) (w : FVec F S512x1024 .f32) (b : FVec F S512 .f32) :
    val_main_v13 (F := F) x0 x1 w b
      = Cert.PairSum.outerAddRow (val_main_v3 (F := F) x0 w) (val_main_v5 (F := F) x1 w) b := by
  funext i
  -- the two broadcasts of the ligand projection read it at (i, k), those of the receptor projection at (j, k),
  -- those of the bias at k
  have eL : idx_main_v6 (idx_main_v8 i) = Cert.PairSum.ligAt i :=
    funext fun a => Fin.ext (by match a with | ⟨0, _⟩ => rfl | ⟨1, _⟩ => rfl)
  have eR : idx_main_v7 (idx_main_v9 i) = Cert.PairSum.recAt i :=
    funext fun a => Fin.ext (by match a with | ⟨0, _⟩ => rfl | ⟨1, _⟩ => rfl)
  have eB : idx_main_v11 (idx_main_v12 i) = Cert.PairSum.laneAt i :=
    funext fun a => Fin.ext (by match a with | ⟨0, _⟩ => rfl)
  rw [val_main_v13_apply, val_main_v10_apply, val_main_v8_apply, val_main_v6_apply, val_main_v9_apply, val_main_v7_apply,
    val_main_v12_apply, val_main_v11_apply, eL, eR, eB]
  rfl

end Cert.ReferenceIdeal.RefValue

end
-- ==== Proof.lean ====
/- The proof of `Cert.Claim`: a pairwise linear layer, `out (i, j, ·) = W · [lig i ; rec j] + b`, computed as two
   projections and a broadcast sum.

   Both programs split the weights `W = [W₁ | W₂]` and form `lig · W₁ᵀ` and `rec · W₂ᵀ` by the same two matrix
   products. The kernel's program adds the bias to every row of the receptor projection on the host and its one region
   writes, block by block over a 16 × 2 grid, the cube `L (i, k) + B (j, k)` of its two input arrays; the reference
   forms the cube `L (i, k) + R (j, k)` and adds the bias last. Entry by entry the two are `l + (r + b)` and
   `(l + r) + b`: equal on the extended reals by associativity of addition, with no appeal to finiteness.

   The three frames are the generated frame runs (the reference's is its generated run with the result dropped); the
   idealization rewrote nothing, so `preserves` is `True`; `algebraic` sets the kernel's run (Proof/KernelResult.lean:
   the blocks assembled in Proof/KernelWhole.lean, the region's input arrays read off the host operations in
   Proof/KernelEntry.lean, the law in Proof/PairSum.lean) beside the reference's (Proof/RefValue.lean), the two
   projections carried as whole terms that are the same on both sides. -/
import proofs.«141155_j13683765805203_2_alg».proof.Defs
import proofs.«141155_j13683765805203_2_alg».proof.Proof.Gen.Kernel
import proofs.«141155_j13683765805203_2_alg».proof.Proof.Gen.Kernel.Frame
import proofs.«141155_j13683765805203_2_alg».proof.Proof.Gen.KernelIdeal
import proofs.«141155_j13683765805203_2_alg».proof.Proof.Gen.KernelIdeal.Frame
import proofs.«141155_j13683765805203_2_alg».proof.Proof.Gen.KernelIdeal.Value
import proofs.«141155_j13683765805203_2_alg».proof.Proof.Gen.ReferenceIdeal
import proofs.«141155_j13683765805203_2_alg».proof.Proof.Gen.ReferenceIdeal.Run
import proofs.«141155_j13683765805203_2_alg».proof.Proof.Gen.ReferenceIdeal.Read
import proofs.«141155_j13683765805203_2_alg».proof.Proof.Gen.Pre_finite_inputs
import proofs.«141155_j13683765805203_2_alg».proof.Proof.KernelResult
import proofs.«141155_j13683765805203_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `(lig (i, k) + rec (j, k)) + b k` of arguments that agree: the kernel's by
    associativity from `lig + (rec + b)`, the reference's as computed; the two projections are the same terms. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
